-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S1024x2048 : Shape := ⟨2, ![1024, 2048]⟩
abbrev S256x2048 : Shape := ⟨2, ![256, 2048]⟩
abbrev S256x1 : Shape := ⟨2, ![256, 1]⟩
abbrev S1x2048 : Shape := ⟨2, ![1, 2048]⟩
abbrev S256 : Shape := ⟨1, ![256]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1024x1024, .f32⟩
  | .local _ .vmem, ⟨4, _⟩ => ⟨S1x256x2048, .f32⟩
  | .local _ .vmem, ⟨5, _⟩ => ⟨S1x256x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  iota_S256x1_d0_w32 : S256x1.Iotas .tc 32 [0]
  iota_S1x2048_d1_w32 : S1x2048.Iotas .tc 32 [1]
  broadcasts_S1x2048_S256x2048 : S1x2048.Broadcasts S256x2048
  broadcasts_S256x1_S256x2048 : S256x1.Broadcasts S256x2048
  reduces_S256x2048_S256 : S256x2048.Reduces [1] S256
  shapeCasts_S256_S256x1 : S256.ShapeCasts S256x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S4x2048x1024.size a
  hwx0_1 : ∀ i : grid0.Coords, EltTy.bits .f32 = 32 ∨ (Rect.block (s := S4x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S4x2048x2048.size a
  hwx0_3 : ∀ i : grid0.Coords, EltTy.bits .f32 = 32 ∨ (Rect.block (s := S4x2048x2048) S1x256x2048.size (cc0_transform_3 i) (hinb0_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S4x2048x2048, .f32⟩
  | .hbm, ⟨4, _⟩ => ⟨S_, .f32⟩
  | .hbm, ⟨5, _⟩ => ⟨S_, .f32⟩
  | .hbm, ⟨6, _⟩ => ⟨S4x2048x2048, .f32⟩
  | .hbm, ⟨7, _⟩ => ⟨S4x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S4x2048x2048, .i1⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v6 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf

class Facts : Prop extends Facts₀ where

variable [Facts]
-- ==== Proof.KernelFrame.lean ====
/-
  The frame of the program and the run its value is read from.

  The program is one pipelined region over a grid of 4 × 8 points (b, qi). At a point the region hands the
  body four staging buffers: the query rows x[b, 256·qi … 256·qi + 255, :] (window 0), ALL key rows x[b, :, :]
  (window 1), the weights w (window 2) and the block of 256 rows of the result it is to fill (window 3).
  Windows 0 and 1 are two views of the SAME argument array x, which the region only reads: the array's full
  share is dealt in two halves, one per window, and joined again at the end; the weights and the result each
  belong to one window, at the full share.

  The body loads the three input blocks whole, loads the result block (a value it never uses), and stores
  ONE payload over the whole result block: so after the body each input buffer holds its block as before, and
  the result buffer holds that payload of the three input blocks (`outBlock`). The body's triple is run once,
  symbolically, at a generic grid point (`sound_kernel`); the launch theorem for windows that share an array
  (`θ_run_region_noSem_shared`) then gives the run: every weakly fair execution terminates, without a fault,
  with each window's array at what the write-backs of all points leave in it (`run_main`). The argument arrays
  are input windows' arrays, never written: the frame (`frame`).
-/
import proofs.«165298_j35493609734830_2_alg».proof.Proof.Gen.Kernel.Launch
import proofs.«165298_j35493609734830_2_alg».proof.Proof.Gen.Kernel.Skeleton
import proofs.«165298_j35493609734830_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.FrameRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region, and the blocks -/

/-- The buffers as the region finds them: as launched (the program is the region alone). -/
abbrev V (c : Dev nD) (b : Ref sig .tc) : Buf (Elt F) ((c : Thread nD τ).loc b) := m ((c : Thread nD τ).loc b)

/-- The program is its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, whether the point fetched it or not (the keys are
    fetched once per batch entry, the weights once): unfetched, the block index has not moved, and the body left
    the buffer as it found it. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_k_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_w_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result block -/

/-- The body's four accesses: each the whole staging buffer. -/
abbrev rQ : Rect S1x256x1024 := Rect.unit (s := S1x256x1024) ![0, 0, 0] S1x256x1024.size inb_S1x256x1024_S1x256x1024_0_0_0
abbrev rK : Rect S1x2048x1024 := Rect.unit (s := S1x2048x1024) ![0, 0, 0] S1x2048x1024.size inb_S1x2048x1024_S1x2048x1024_0_0_0
abbrev rW : Rect S1024x1024 := Rect.unit (s := S1024x1024) ![0, 0] S1024x1024.size inb_S1024x1024_S1024x1024_0_0
abbrev rO : Rect S1x256x2048 := Rect.unit (s := S1x256x2048) ![0, 0, 0] S1x256x2048.size inb_S1x256x2048_S1x256x2048_0_0_0

theorem hz3 : (![0, 0, 0] : Fin 3 → Nat) = fun _ => 0 := funext fun a => by fin_cases a <;> rfl
theorem hz2 : (![0, 0] : Fin 2 → Nat) = fun _ => 0 := funext fun a => by fin_cases a <;> rfl

/-- The result block after the body at grid coordinates `i`, from the query block, the key block and the weights:
    its one store, over the whole block, of the body's payload of the three loaded blocks. -/
def outBlock (i : grid0.Coords) (xq : Vec F S1x256x1024 .f32) (xk : Vec F S1x2048x1024 .f32) (xw : Vec F S1024x1024 .f32) : Vec F S1x256x2048 .f32 :=
  View.canon [⟨rO, k0_pay1 i (View.ld xq rQ) (View.ld xw rW) (View.ld xk rK)⟩]

/-- The one store covers the block. -/
theorem cover_out (p0 : Vec F S1x256x2048 .f32) (y : S1x256x2048.Idx) :
    ∃ pc ∈ ([⟨rO, p0⟩] : List (View.Piece (Elt F) S1x256x2048 .f32)), y ∈ pc.1.set :=
  ⟨_, List.mem_singleton_self _, View.mem_set_unit_zero hz3 inb_S1x256x2048_S1x256x2048_0_0_0 y⟩

/-! ## The body's triple -/

set_option maxHeartbeats 1000000 in
/-- The body on whole staging buffers — the inputs' at contents xq, xk, xw, the result's at anything — runs to
    the continuation with the inputs' as they were and the result's at `outBlock` of them. -/
theorem sound_kernel (c : Dev nD) (E : Set ℕ) (i : grid0.Coords)
    (arg2 : Memref sig .tc .vmem S1x256x1024 .f32) (harg2 : arg2.IsWhole) (arg3 : Memref sig .tc .vmem S1x2048x1024 .f32) (harg3 : arg3.IsWhole)
    (arg4 : Memref sig .tc .vmem S1024x1024 .f32) (harg4 : arg4.IsWhole) (arg5 : Memref sig .tc .vmem S1x256x2048 .f32) (harg5 : arg5.IsWhole)
    (xq : Vec F S1x256x1024 .f32) (xk : Vec F S1x2048x1024 .f32) (xw : Vec F S1024x1024 .f32) (K : PUnit → sProp 𝕄) :
    iprop(owns (c : Thread nD τ) arg2 fullShare xq ∗ owns (c : Thread nD τ) arg3 fullShare xk ∗ owns (c : Thread nD τ) arg4 fullShare xw
        ∗ (∃ d, owns (c : Thread nD τ) arg5 fullShare d)
        ∗ (iprop(owns (c : Thread nD τ) arg2 fullShare xq ∗ owns (c : Thread nD τ) arg3 fullShare xk ∗ owns (c : Thread nD τ) arg4 fullShare xw
            ∗ owns (c : Thread nD τ) arg5 fullShare (outBlock i xq xk xw)) -∗ K ⟨⟩))
      ⊢ wp frame (wpE (defs₀ (F := F)) Variants.none c none) E (cc0_fused_kernel i arg2 harg2 arg3 harg3 arg4 harg4 arg5 harg5) K := by
  simp only [cc0_fused_kernel_eq_skeleton]; unfold cc0_fused_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The proof data -/

/-- The region's proof data on core `c`: the arrays as launched; after the body at point `t` each input buffer
    at its block and the result buffer at `outBlock` of the three input blocks; nothing carried between points
    but the core's other scoped buffers; the argument x held in two halves, one by the query window and one by
    the key window, the weights whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (grid0.coords t) (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_out (c : Dev nD) (t : Fin cfg0.N) :
    (dats m 0 c).after 3 t = outBlock (grid0.coords t) (iblk m c 0 t) (iblk m c 1 t) (iblk m c 2 t) := by dsimp only [dats]

theorem before_q (c : Dev nD) (t : Fin cfg0.N) (d) : (dats m 0 c).before 0 t d = iblk m c 0 t :=
  before_q_of m (dats m 0 c) (A_eq m c 0) (after_q m c) t d
theorem before_k (c : Dev nD) (t : Fin cfg0.N) (d) : (dats m 0 c).before 1 t d = iblk m c 1 t :=
  before_k_of m (dats m 0 c) (A_eq m c 1) (after_k m c) t d
theorem before_w (c : Dev nD) (t : Fin cfg0.N) (d) : (dats m 0 c).before 2 t d = iblk m c 2 t :=
  before_w_of m (dats m 0 c) (A_eq m c 2) (after_w m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k, before_w]
  rw [show (dats m 0 c).Φ t.succ = (dats m 0 c).Φ t.castSucc from rfl,
    show (dats m 0 c).owesAt () t.succ = (dats m 0 c).owesAt () t.castSucc from rfl,
    after_q, after_k, after_w, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at the region's entry -/

/-- The buffers behind the windows' arrays, each whole at the full share, make the windows' arrays at their
    shares: the argument x is behind two windows and its full share splits into the two halves they hold; the
    weights and the result are behind one window each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_arg1, main_v0] (by decide) (by decide), bigSep_W0]
  have e0 : ((cfg0.win 0).arr.view.loc (c : Thread nD τ) ↦[(cfg0.win 0).arr.view.set]{(dats m 0 c).share 0} (dats m 0 c).arrAt 0 0 : sProp 𝕄)
      = ((c : Thread nD τ).loc main_arg0 ↦{fullShare.left} V m c main_arg0) := by
    rw [(arr_whole0 0).set_eq_univ]; rfl
  have e1 : ((cfg0.win 1).arr.view.loc (c : Thread nD τ) ↦[(cfg0.win 1).arr.view.set]{(dats m 0 c).share 1} (dats m 0 c).arrAt 1 0 : sProp 𝕄)
      = ((c : Thread nD τ).loc main_arg0 ↦{fullShare.right} V m c main_arg0) := by
    rw [(arr_whole0 1).set_eq_univ]; rfl
  have e2 : ((cfg0.win 2).arr.view.loc (c : Thread nD τ) ↦[(cfg0.win 2).arr.view.set]{(dats m 0 c).share 2} (dats m 0 c).arrAt 2 0 : sProp 𝕄)
      = ((c : Thread nD τ).loc main_arg1 ↦{fullShare} V m c main_arg1) := by
    rw [(arr_whole0 2).set_eq_univ]; rfl
  have e3 : ((cfg0.win 3).arr.view.loc (c : Thread nD τ) ↦[(cfg0.win 3).arr.view.set]{(dats m 0 c).share 3} (dats m 0 c).arrAt 3 0 : sProp 𝕄)
      = ((c : Thread nD τ).loc main_v0 ↦{fullShare} V m c main_v0) := by
    rw [(arr_whole0 3).set_eq_univ]; rfl
  rw [e0, e1, e2, e3]
  show iprop(((c : Thread nD τ).loc main_arg0 ↦{fullShare} V m c main_arg0) ∗ ((c : Thread nD τ).loc main_arg1 ↦{fullShare} V m c main_arg1)
      ∗ ((c : Thread nD τ).loc main_v0 ↦{fullShare} V m c main_v0)) ⊢ _
  iintro ⟨Hx, Hw, Ho⟩
  ihave Hx' := (pointsTo_share (PosShare.mem_left_op_right fullShare)).1 $$ Hx
  icases Hx' with ⟨Hxl, Hxr⟩
  isplitl [Hxl]; · iexact Hxl
  isplitl [Hxr]; · iexact Hxr
  isplitl [Hw]; · iexact Hw
  iexact Ho

/-! ## The run and the frame -/

/-- Nothing is carried between points: the invariant is the core's other scoped buffers, at every point. -/
theorem Phi_eq (c : Dev nD) (t : Fin (cfg0.N + 1)) :
    (dats m 0 c).Φ t = Pipeline.scopedRest (Ix := Unit) (Name := ℕ) (U := UR sig nD τ) (Lvl := ℕ) (Val := Elt F) spec0 c := rfl

set_option backward.isDefEq.respectTransparency.types false in
/-- For any values, from any memory with zero counters: every weakly fair execution of the program
    terminates, nothing faulting, and in every final state each window's array holds what the write-backs of
    all the grid's points leave in it (an input's array: its launch contents). -/
theorem run_main : θ_run defs (onTc (τ := τ) (main (F := F))) (s₀ m ρ)
    (fun r => ∀ c : Dev nD, ∀ w : Fin cfg0.W,
      r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [Phi_eq]; iintro ⟨-, H⟩; iexact H)
    (hout := fun c => by rw [Phi_eq]; iintro H; isplitr; · iempintro
                         iexact H)
    (QY := fun _ _ => True)
    (hY := fun c s' => by
      iintro ⟨-, -, HSI⟩; imodintro
      isplitr; · ipureintro; trivial
      iexact HSI)
    (hQ := fun s h c w => (h c).1 w)

/-- THE FRAME: the program runs to the end, faults nowhere, and its argument arrays end as launched — each is the
    array of an input window, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c 0).trans (((dats m 0 c).arrAt_in 0 rfl _).trans (A_eq m c 0)),
       (h c 2).trans (((dats m 0 c).arrAt_in 2 rfl _).trans (A_eq m c 2))⟩)
    (run_main m ρ)

end Cert.Kernel.FrameRun

end
-- ==== Proof.KernelIdealFrame.lean ====
/-
  The frame of the program and the run its value is read from.

  The program is one pipelined region over a grid of 4 × 8 points (b, qi). At a point the region hands the
  body four staging buffers: the query rows x[b, 256·qi … 256·qi + 255, :] (window 0), ALL key rows x[b, :, :]
  (window 1), the weights w (window 2) and the block of 256 rows of the result it is to fill (window 3).
  Windows 0 and 1 are two views of the SAME argument array x, which the region only reads: the array's full
  share is dealt in two halves, one per window, and joined again at the end; the weights and the result each
  belong to one window, at the full share.

  The body loads the three input blocks whole, loads the result block (a value it never uses), and stores
  ONE payload over the whole result block: so after the body each input buffer holds its block as before, and
  the result buffer holds that payload of the three input blocks (`outBlock`). The body's triple is run once,
  symbolically, at a generic grid point (`sound_kernel`); the launch theorem for windows that share an array
  (`θ_run_region_noSem_shared`) then gives the run: every weakly fair execution terminates, without a fault,
  with each window's array at what the write-backs of all points leave in it (`run_main`). The argument arrays
  are input windows' arrays, never written: the frame (`frame`).
-/
import proofs.«165298_j35493609734830_2_alg».proof.Proof.Gen.KernelIdeal.Launch
import proofs.«165298_j35493609734830_2_alg».proof.Proof.Gen.KernelIdeal.Skeleton
import proofs.«165298_j35493609734830_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.FrameRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program up to its region, and the blocks -/

/-- The buffers as the region finds them: as launched (the program is the region alone). -/
abbrev V (c : Dev nD) (b : Ref sig .tc) : Buf (Elt F) ((c : Thread nD τ).loc b) := m ((c : Thread nD τ).loc b)

/-- The program is its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, whether the point fetched it or not (the keys are
    fetched once per batch entry, the weights once): unfetched, the block index has not moved, and the body left
    the buffer as it found it. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_k_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_w_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result block -/

/-- The body's four accesses: each the whole staging buffer. -/
abbrev rQ : Rect S1x256x1024 := Rect.unit (s := S1x256x1024) ![0, 0, 0] S1x256x1024.size inb_S1x256x1024_S1x256x1024_0_0_0
abbrev rK : Rect S1x2048x1024 := Rect.unit (s := S1x2048x1024) ![0, 0, 0] S1x2048x1024.size inb_S1x2048x1024_S1x2048x1024_0_0_0
abbrev rW : Rect S1024x1024 := Rect.unit (s := S1024x1024) ![0, 0] S1024x1024.size inb_S1024x1024_S1024x1024_0_0
abbrev rO : Rect S1x256x2048 := Rect.unit (s := S1x256x2048) ![0, 0, 0] S1x256x2048.size inb_S1x256x2048_S1x256x2048_0_0_0

theorem hz3 : (![0, 0, 0] : Fin 3 → Nat) = fun _ => 0 := funext fun a => by fin_cases a <;> rfl
theorem hz2 : (![0, 0] : Fin 2 → Nat) = fun _ => 0 := funext fun a => by fin_cases a <;> rfl

/-- The result block after the body at grid coordinates `i`, from the query block, the key block and the weights:
    its one store, over the whole block, of the body's payload of the three loaded blocks. -/
def outBlock (i : grid0.Coords) (xq : Vec F S1x256x1024 .f32) (xk : Vec F S1x2048x1024 .f32) (xw : Vec F S1024x1024 .f32) : Vec F S1x256x2048 .f32 :=
  View.canon [⟨rO, k0_pay1 i (View.ld xq rQ) (View.ld xw rW) (View.ld xk rK)⟩]

/-- The one store covers the block. -/
theorem cover_out (p0 : Vec F S1x256x2048 .f32) (y : S1x256x2048.Idx) :
    ∃ pc ∈ ([⟨rO, p0⟩] : List (View.Piece (Elt F) S1x256x2048 .f32)), y ∈ pc.1.set :=
  ⟨_, List.mem_singleton_self _, View.mem_set_unit_zero hz3 inb_S1x256x2048_S1x256x2048_0_0_0 y⟩

/-! ## The body's triple -/

set_option maxHeartbeats 1000000 in
/-- The body on whole staging buffers — the inputs' at contents xq, xk, xw, the result's at anything — runs to
    the continuation with the inputs' as they were and the result's at `outBlock` of them. -/
theorem sound_kernel (c : Dev nD) (E : Set ℕ) (i : grid0.Coords)
    (arg2 : Memref sig .tc .vmem S1x256x1024 .f32) (harg2 : arg2.IsWhole) (arg3 : Memref sig .tc .vmem S1x2048x1024 .f32) (harg3 : arg3.IsWhole)
    (arg4 : Memref sig .tc .vmem S1024x1024 .f32) (harg4 : arg4.IsWhole) (arg5 : Memref sig .tc .vmem S1x256x2048 .f32) (harg5 : arg5.IsWhole)
    (xq : Vec F S1x256x1024 .f32) (xk : Vec F S1x2048x1024 .f32) (xw : Vec F S1024x1024 .f32) (K : PUnit → sProp 𝕄) :
    iprop(owns (c : Thread nD τ) arg2 fullShare xq ∗ owns (c : Thread nD τ) arg3 fullShare xk ∗ owns (c : Thread nD τ) arg4 fullShare xw
        ∗ (∃ d, owns (c : Thread nD τ) arg5 fullShare d)
        ∗ (iprop(owns (c : Thread nD τ) arg2 fullShare xq ∗ owns (c : Thread nD τ) arg3 fullShare xk ∗ owns (c : Thread nD τ) arg4 fullShare xw
            ∗ owns (c : Thread nD τ) arg5 fullShare (outBlock i xq xk xw)) -∗ K ⟨⟩))
      ⊢ wp frame (wpE (defs₀ (F := F)) Variants.none c none) E (cc0_fused_kernel i arg2 harg2 arg3 harg3 arg4 harg4 arg5 harg5) K := by
  simp only [cc0_fused_kernel_eq_skeleton]; unfold cc0_fused_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The proof data -/

/-- The region's proof data on core `c`: the arrays as launched; after the body at point `t` each input buffer
    at its block and the result buffer at `outBlock` of the three input blocks; nothing carried between points
    but the core's other scoped buffers; the argument x held in two halves, one by the query window and one by
    the key window, the weights whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (grid0.coords t) (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_out (c : Dev nD) (t : Fin cfg0.N) :
    (dats m 0 c).after 3 t = outBlock (grid0.coords t) (iblk m c 0 t) (iblk m c 1 t) (iblk m c 2 t) := by dsimp only [dats]

theorem before_q (c : Dev nD) (t : Fin cfg0.N) (d) : (dats m 0 c).before 0 t d = iblk m c 0 t :=
  before_q_of m (dats m 0 c) (A_eq m c 0) (after_q m c) t d
theorem before_k (c : Dev nD) (t : Fin cfg0.N) (d) : (dats m 0 c).before 1 t d = iblk m c 1 t :=
  before_k_of m (dats m 0 c) (A_eq m c 1) (after_k m c) t d
theorem before_w (c : Dev nD) (t : Fin cfg0.N) (d) : (dats m 0 c).before 2 t d = iblk m c 2 t :=
  before_w_of m (dats m 0 c) (A_eq m c 2) (after_w m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k, before_w]
  rw [show (dats m 0 c).Φ t.succ = (dats m 0 c).Φ t.castSucc from rfl,
    show (dats m 0 c).owesAt () t.succ = (dats m 0 c).owesAt () t.castSucc from rfl,
    after_q, after_k, after_w, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at the region's entry -/

/-- The buffers behind the windows' arrays, each whole at the full share, make the windows' arrays at their
    shares: the argument x is behind two windows and its full share splits into the two halves they hold; the
    weights and the result are behind one window each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_arg1, main_v0] (by decide) (by decide), bigSep_W0]
  have e0 : ((cfg0.win 0).arr.view.loc (c : Thread nD τ) ↦[(cfg0.win 0).arr.view.set]{(dats m 0 c).share 0} (dats m 0 c).arrAt 0 0 : sProp 𝕄)
      = ((c : Thread nD τ).loc main_arg0 ↦{fullShare.left} V m c main_arg0) := by
    rw [(arr_whole0 0).set_eq_univ]; rfl
  have e1 : ((cfg0.win 1).arr.view.loc (c : Thread nD τ) ↦[(cfg0.win 1).arr.view.set]{(dats m 0 c).share 1} (dats m 0 c).arrAt 1 0 : sProp 𝕄)
      = ((c : Thread nD τ).loc main_arg0 ↦{fullShare.right} V m c main_arg0) := by
    rw [(arr_whole0 1).set_eq_univ]; rfl
  have e2 : ((cfg0.win 2).arr.view.loc (c : Thread nD τ) ↦[(cfg0.win 2).arr.view.set]{(dats m 0 c).share 2} (dats m 0 c).arrAt 2 0 : sProp 𝕄)
      = ((c : Thread nD τ).loc main_arg1 ↦{fullShare} V m c main_arg1) := by
    rw [(arr_whole0 2).set_eq_univ]; rfl
  have e3 : ((cfg0.win 3).arr.view.loc (c : Thread nD τ) ↦[(cfg0.win 3).arr.view.set]{(dats m 0 c).share 3} (dats m 0 c).arrAt 3 0 : sProp 𝕄)
      = ((c : Thread nD τ).loc main_v0 ↦{fullShare} V m c main_v0) := by
    rw [(arr_whole0 3).set_eq_univ]; rfl
  rw [e0, e1, e2, e3]
  show iprop(((c : Thread nD τ).loc main_arg0 ↦{fullShare} V m c main_arg0) ∗ ((c : Thread nD τ).loc main_arg1 ↦{fullShare} V m c main_arg1)
      ∗ ((c : Thread nD τ).loc main_v0 ↦{fullShare} V m c main_v0)) ⊢ _
  iintro ⟨Hx, Hw, Ho⟩
  ihave Hx' := (pointsTo_share (PosShare.mem_left_op_right fullShare)).1 $$ Hx
  icases Hx' with ⟨Hxl, Hxr⟩
  isplitl [Hxl]; · iexact Hxl
  isplitl [Hxr]; · iexact Hxr
  isplitl [Hw]; · iexact Hw
  iexact Ho

/-! ## The run and the frame -/

/-- Nothing is carried between points: the invariant is the core's other scoped buffers, at every point. -/
theorem Phi_eq (c : Dev nD) (t : Fin (cfg0.N + 1)) :
    (dats m 0 c).Φ t = Pipeline.scopedRest (Ix := Unit) (Name := ℕ) (U := UR sig nD τ) (Lvl := ℕ) (Val := Elt F) spec0 c := rfl

set_option backward.isDefEq.respectTransparency.types false in
/-- For any values, from any memory with zero counters: every weakly fair execution of the program
    terminates, nothing faulting, and in every final state each window's array holds what the write-backs of
    all the grid's points leave in it (an input's array: its launch contents). -/
theorem run_main : θ_run defs (onTc (τ := τ) (main (F := F))) (s₀ m ρ)
    (fun r => ∀ c : Dev nD, ∀ w : Fin cfg0.W,
      r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [Phi_eq]; iintro ⟨-, H⟩; iexact H)
    (hout := fun c => by rw [Phi_eq]; iintro H; isplitr; · iempintro
                         iexact H)
    (QY := fun _ _ => True)
    (hY := fun c s' => by
      iintro ⟨-, -, HSI⟩; imodintro
      isplitr; · ipureintro; trivial
      iexact HSI)
    (hQ := fun s h c w => (h c).1 w)

/-- THE FRAME: the program runs to the end, faults nowhere, and its argument arrays end as launched — each is the
    array of an input window, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c 0).trans (((dats m 0 c).arrAt_in 0 rfl _).trans (A_eq m c 0)),
       (h c 2).trans (((dats m 0 c).arrAt_in 2 rfl _).trans (A_eq m c 2))⟩)
    (run_main m ρ)

end Cert.KernelIdeal.FrameRun

end
-- ==== Proof.Spec.lean ====
/-
  The mathematics both programs compute, as one function of the two argument arrays.

  For a batch entry b and a query row r of x : [4, 2048, 1024], with weights w : [1024, 1024]:
    * the projected query  (x w)[b, r, e] = ∑ d, x[b, r, d] · w[d, e];
    * its score against key row c: ∑ e, (x w)[b, r, e] · x[b, c, e], scaled by 1/32 = 1/√1024;
    * the causal mask: a key c beyond the query's own position r scores −∞;
    * the softmax of that masked row: exp (s c − max s) / ∑ c', exp (s c' − max s).
  Everything is over the extended reals, with the conventions of the ideal float instance (a product with
  −∞, exp (−∞) = 0, the quotient `Ideal.div`). The row operations are stated for ONE row, given the query
  vector, the weights and the key rows, so that a block of rows of the kernel and the whole array of the
  reference are both instances of them.
-/
import Idealize.ShloMosaic.PureOps.Ideal
import Idealize.ShloMosaic.Lib.ValueIdx

noncomputable section

open scoped BigOperators

namespace Cert.CausalSoftmax

open Idealize.ShloMosaic Idealize.ShloMosaic.ValueIdx

/-- The activations x : [4, 2048, 1024], the weights w : [1024, 1024], the probabilities : [4, 2048, 2048]. -/
abbrev SX : Shape := ⟨3, ![4, 2048, 1024]⟩
abbrev SW : Shape := ⟨2, ![1024, 1024]⟩
abbrev SP : Shape := ⟨3, ![4, 2048, 2048]⟩

/-! ## The constants -/

/-- The scale 1/√1024 = 1/32, as the float word 0.03125 the kernel multiplies by. -/
def scale : EReal := Ideal.ofBits .f32 0x3D000000#32

/-- The word of −∞ denotes the bottom of the extended reals. -/
theorem negInf_word : Ideal.ofBits .f32 0xFF800000#32 = ⊥ := by
  simp [Ideal.ofBits, Ideal.ieee]

/-- The word 0.03125 denotes the real 1/32. -/
theorem scale_eq : scale = ((1 / 32 : ℝ) : EReal) := by
  unfold scale
  simp [Ideal.ofBits, Ideal.ieee, -EReal.coe_mul]; norm_num

/-- The word 1024.0 denotes the real 1024. -/
theorem word_1024 : Ideal.ofBits .f32 0x44800000#32 = ((1024 : ℝ) : EReal) := by
  simp [Ideal.ofBits, Ideal.ieee, -EReal.coe_mul]; norm_num

/-- Dividing by √1024 is multiplying by 1/32, on every extended real: √1024 = 32 exactly, and the
    quotient by a nonzero real is the product with its reciprocal. -/
theorem div_sqrt_1024 (s : EReal) : Ideal.div s (Ideal.sqrt (Ideal.ofBits .f32 0x44800000#32)) = s * scale := by
  have h32 : Real.sqrt 1024 = 32 := by
    rw [show (1024 : ℝ) = 32 ^ 2 by norm_num]; exact Real.sqrt_sq (by norm_num)
  rw [word_1024, Ideal.sqrt_coe, if_neg (by norm_num), h32, Ideal.div_coe (by norm_num), scale_eq]

/-! ## One row -/

/-- The scores of one query vector q against the key rows k, through the weights:
    ∑ e, (∑ d, q d · w[d, e]) · k c e. -/
def bilinear (q : Fin 1024 → EReal) (w : SW.Idx → EReal) (k : Fin 2048 → Fin 1024 → EReal) (c : Fin 2048) : EReal :=
  ∑ e : Fin 1024, (∑ d : Fin 1024, q d * w (ix2 d e)) * k c e

/-- The scaled scores of the query at position `row`, a key after that position masked to −∞. -/
def maskedRow (row : ℕ) (sc : Fin 2048 → EReal) (c : Fin 2048) : EReal :=
  if c.val ≤ row then sc c * scale else ⊥

/-- The largest entry of a row (the fold of max from −∞). -/
def rowMax (s : Fin 2048 → EReal) : EReal := (Finset.univ : Finset (Fin 2048)).fold max ⊥ s

/-- The softmax of a row, shifted by its maximum. -/
def softmaxRow (s : Fin 2048 → EReal) (c : Fin 2048) : EReal :=
  Ideal.div (Ideal.exp (s c - rowMax s)) (∑ c' : Fin 2048, Ideal.exp (s c' - rowMax s))

/-- The attention probabilities of the query at position `row`. -/
def attnRow (row : ℕ) (q : Fin 1024 → EReal) (w : SW.Idx → EReal) (k : Fin 2048 → Fin 1024 → EReal) (c : Fin 2048) : EReal :=
  softmaxRow (maskedRow row (bilinear q w k)) c

/-! ## The whole array -/

/-- The result array: entry (b, r, c) is the probability the query at row r of batch b gives key c. -/
def probs (x : SX.Idx → EReal) (w : SW.Idx → EReal) (i : SP.Idx) : EReal :=
  attnRow (i 1).val (fun d => x (ix3 (i 0) (i 1) d)) w (fun c e => x (ix3 (i 0) c e)) (i 2)

end Cert.CausalSoftmax

end
-- ==== Proof.KernelRowOps.lean ====
/-
  The operations of the attention kernel's body that are not pointwise, each read at one element.

  The body works on a block of 256 query rows against all 2048 key rows. Read at row p and column c:
    * a plain matrix product (no batch axis, the left operand's columns contracted against the right
      operand's rows) is the sum over the contracted coordinate of the products of the two entries;
    * the causal comparison of the column number with the row number, both small naturals written as
      32-bit words, is the comparison of the naturals;
    * a row reduction kept as a column ([256] viewed as [256, 1]) and spread over the 2048 columns reads
      the row's reduced value at every column: the fold of max from -∞ for the row maximum, the
      finite sum for the row sum.
  Every statement is over variables of the literal vector types, at indices built from coordinates.
-/
import proofs.«165298_j35493609734830_2_alg».proof.Proof.Gen.KernelIdeal.Skeleton
import proofs.«165298_j35493609734830_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.RowValue

open Cert.KernelIdeal Cert.KernelIdeal.Gen Idealize.ShloMosaic Idealize.ShloMosaic.ValueIdx

/-! ## The two matrix products -/

/-- The dimension numbers of the product [256, 1024] × [1024, 1024] (query rows times weights). -/
abbrev dotQW : DotDims S256x1024 S1024x1024 S256x1024 := dot_S256x1024_S1024x1024_S256x1024_1_0_0_1_n_n
/-- The dimension numbers of the product [256, 1024] × [1024, 2048] (projected rows times transposed keys). -/
abbrev dotSK : DotDims S256x1024 S1024x2048 S256x2048 := dot_S256x1024_S1024x2048_S256x2048_1_0_0_1_n_n

/-- Left operand of the first product, row coordinate: the output's row. -/
theorem qw_lhs_0 (j : S256x1024.Idx) (k : dotQW.contr.Idx) : (dotQW.lhsIdx j k 0).val = (j 0).val := by
  unfold DotDims.lhsIdx
  rw [dif_neg (show ¬(0 : Fin S256x1024.rank) ∈ dotQW.lhsBatch by decide),
    dif_pos (show (0 : Fin S256x1024.rank) ∈ dotQW.lhsNonContracting by decide)]
  rfl
/-- Left operand of the first product, column coordinate: the contracted coordinate. -/
theorem qw_lhs_1 (j : S256x1024.Idx) (k : dotQW.contr.Idx) : (dotQW.lhsIdx j k 1).val = (k ⟨0, by decide⟩).val :=
  dotQW.lhsIdx_val_of_single rfl j k
/-- Right operand of the first product, row coordinate: the contracted coordinate. -/
theorem qw_rhs_0 (j : S256x1024.Idx) (k : dotQW.contr.Idx) : (dotQW.rhsIdx j k 0).val = (k ⟨0, by decide⟩).val :=
  dotQW.rhsIdx_val_of_single rfl j k
/-- Right operand of the first product, column coordinate: the output's column. -/
theorem qw_rhs_1 (j : S256x1024.Idx) (k : dotQW.contr.Idx) : (dotQW.rhsIdx j k 1).val = (j 1).val := by
  unfold DotDims.rhsIdx
  rw [dif_neg (show ¬(1 : Fin S1024x1024.rank) ∈ dotQW.rhsBatch by decide),
    dif_pos (show (1 : Fin S1024x1024.rank) ∈ dotQW.rhsNonContracting by decide)]
  rfl

/-- The product of a [256, 1024] block with a [1024, 1024] matrix, accumulated from zero, at (p, e):
    ∑ d, a[p, d] · b[d, e]. The contraction index has one axis; the sum is re-indexed through its one
    coordinate, and the operand indices at output (p, e) and contraction coordinate d are (p, d) and (d, e). -/
theorem matmul_qw_apply (a : FVec Ideal S256x1024 .bf16) (b : FVec Ideal S1024x1024 .bf16) (p : Fin 256) (e : Fin 1024) :
    matmul dotQW none a b (constant (F := Ideal) S256x1024 .f32 0x00000000#32) (ix2 p e)
      = ∑ d : Fin 1024, a (ix2 p d) * b (ix2 d e) := by
  refine (Ideal.matmul_constant_zero_apply dotQW none a b (ix2 p e)).trans ?_
  rw [← Equiv.sum_comp (contrEquiv1 dotQW 1024 rfl rfl).symm]
  refine Finset.sum_congr rfl fun d _ => ?_
  have hd := contrEquiv1_symm_val dotQW 1024 rfl rfl d
  have el : dotQW.lhsIdx (ix2 p e) ((contrEquiv1 dotQW 1024 rfl rfl).symm d) = ix2 p d :=
    funext fun c => Fin.ext (by
      match c with
      | ⟨0, _⟩ => exact qw_lhs_0 _ _
      | ⟨1, _⟩ => exact (qw_lhs_1 _ _).trans hd)
  have er : dotQW.rhsIdx (ix2 p e) ((contrEquiv1 dotQW 1024 rfl rfl).symm d) = ix2 d e :=
    funext fun c => Fin.ext (by
      match c with
      | ⟨0, _⟩ => exact (qw_rhs_0 _ _).trans hd
      | ⟨1, _⟩ => exact qw_rhs_1 _ _)
  rw [el, er]

/-- Left operand of the second product, row coordinate: the output's row. -/
theorem sk_lhs_0 (j : S256x2048.Idx) (k : dotSK.contr.Idx) : (dotSK.lhsIdx j k 0).val = (j 0).val := by
  unfold DotDims.lhsIdx
  rw [dif_neg (show ¬(0 : Fin S256x1024.rank) ∈ dotSK.lhsBatch by decide),
    dif_pos (show (0 : Fin S256x1024.rank) ∈ dotSK.lhsNonContracting by decide)]
  rfl
/-- Left operand of the second product, column coordinate: the contracted coordinate. -/
theorem sk_lhs_1 (j : S256x2048.Idx) (k : dotSK.contr.Idx) : (dotSK.lhsIdx j k 1).val = (k ⟨0, by decide⟩).val :=
  dotSK.lhsIdx_val_of_single rfl j k
/-- Right operand of the second product, row coordinate: the contracted coordinate. -/
theorem sk_rhs_0 (j : S256x2048.Idx) (k : dotSK.contr.Idx) : (dotSK.rhsIdx j k 0).val = (k ⟨0, by decide⟩).val :=
  dotSK.rhsIdx_val_of_single rfl j k
/-- Right operand of the second product, column coordinate: the output's column. -/
theorem sk_rhs_1 (j : S256x2048.Idx) (k : dotSK.contr.Idx) : (dotSK.rhsIdx j k 1).val = (j 1).val := by
  unfold DotDims.rhsIdx
  rw [dif_neg (show ¬(1 : Fin S1024x2048.rank) ∈ dotSK.rhsBatch by decide),
    dif_pos (show (1 : Fin S1024x2048.rank) ∈ dotSK.rhsNonContracting by decide)]
  rfl

/-- The product of a [256, 1024] block with a [1024, 2048] matrix, accumulated from zero, at (p, c):
    ∑ e, a[p, e] · b[e, c]. -/
theorem matmul_sk_apply (a : FVec Ideal S256x1024 .bf16) (b : FVec Ideal S1024x2048 .bf16) (p : Fin 256) (c : Fin 2048) :
    matmul dotSK none a b (constant (F := Ideal) S256x2048 .f32 0x00000000#32) (ix2 p c)
      = ∑ e : Fin 1024, a (ix2 p e) * b (ix2 e c) := by
  refine (Ideal.matmul_constant_zero_apply dotSK none a b (ix2 p c)).trans ?_
  rw [← Equiv.sum_comp (contrEquiv1 dotSK 1024 rfl rfl).symm]
  refine Finset.sum_congr rfl fun e _ => ?_
  have he := contrEquiv1_symm_val dotSK 1024 rfl rfl e
  have el : dotSK.lhsIdx (ix2 p c) ((contrEquiv1 dotSK 1024 rfl rfl).symm e) = ix2 p e :=
    funext fun x => Fin.ext (by
      match x with
      | ⟨0, _⟩ => exact sk_lhs_0 _ _
      | ⟨1, _⟩ => exact (sk_lhs_1 _ _).trans he)
  have er : dotSK.rhsIdx (ix2 p c) ((contrEquiv1 dotSK 1024 rfl rfl).symm e) = ix2 e c :=
    funext fun x => Fin.ext (by
      match x with
      | ⟨0, _⟩ => exact (sk_rhs_0 _ _).trans he
      | ⟨1, _⟩ => exact sk_rhs_1 _ _)
  rw [el, er]

/-! ## The scaled scores -/

/-- The scaled score at (p, c): the block's row p projected through the weights, against key row c, times
    the scale word. A change of format is the identity on the extended reals; the query block [1, 256, 1024]
    is read as [256, 1024] and the key block [1, 2048, 1024] as [2048, 1024], transposed, so the second
    product's right factor at (e, c) is the key row c at e. -/
theorem scores_apply (v0 : Vec Ideal S1x256x1024 .f32) (v3 : Vec Ideal S1024x1024 .f32) (v7 : Vec Ideal S1x2048x1024 .f32)
    (h1 : S1x256x1024.ShapeCasts S256x1024) (h2 : S1x2048x1024.ShapeCasts S2048x1024)
    (ht : S2048x1024.Transposes [1, 0] S1024x2048) (hl : FTy.bits .bf16 < FTy.bits .f32) (p : Fin 256) (c : Fin 2048) :
    mulf (matmul dotSK none
           (truncf .bf16 (matmul dotQW none (truncf .bf16 (shapeCast S256x1024 v0 h1) hl) (truncf .bf16 v3 hl)
             (constant (F := Ideal) S256x1024 .f32 0x00000000#32)) hl)
           (transpose S1024x2048 [1, 0] (truncf .bf16 (shapeCast S2048x1024 v7 h2) hl) ht)
           (constant (F := Ideal) S256x2048 .f32 0x00000000#32))
         (broadcast S256x2048 (Scalar.ofBits (F := Ideal) .f32 0x3D000000#32)) (ix2 p c)
      = Cert.CausalSoftmax.bilinear (fun d => v0 (ix3 (0 : Fin 1) p d)) v3 (fun c e => v7 (ix3 (0 : Fin 1) c e)) c
          * Cert.CausalSoftmax.scale := by
  refine congrArg (· * Cert.CausalSoftmax.scale) ?_
  refine (matmul_sk_apply _ _ p c).trans ?_
  unfold Cert.CausalSoftmax.bilinear
  refine Finset.sum_congr rfl fun e _ => ?_
  refine congrArg₂ (· * ·) ?_ ?_
  · refine (matmul_qw_apply _ _ p e).trans ?_
    refine Finset.sum_congr rfl fun d _ => ?_
    exact congrArg (· * v3 (ix2 d e)) (shapeCast_1ab_ab_apply v0 h1 p d)
  · exact (transpose_ix2_apply _ ht e c).trans (shapeCast_1ab_ab_apply v7 h2 c e)

/-! ## A column kept by a row reduction, and its spread over the columns -/

section Keepdims
variable {α : Type}

/-- An [a] array cast to [a, 1] reads, at (i, u), the operand at i, whatever the unit coordinate u: the two
    row-major positions are i and i · 1 + 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Keepdims

/-- Row p of a [256, 2048] array with the column coordinate c put back is the index (p, c). -/
theorem lift_row (h : S256x2048.Reduces [1] S256) (p : Fin 256) (c : Fin 2048) : h.lift (ix1 p) c = ix2 p c :=
  funext fun a => Fin.ext (by match a with | ⟨0, _⟩ => rfl | ⟨1, _⟩ => rfl)

/-- The row maximum, kept as a column and spread over the columns, at (p, c): the fold of max from -∞ over row p.
    The reduction starts from the word of -∞, which denotes the bottom of the extended reals. -/
theorem rowMax_apply (s : FVec Ideal S256x2048 .f32) (h : S256x2048.Reduces [1] S256) (hφ : FKind.Formats .f32)
    (hacc : (0xFF800000#32 : BitVec 32) = FKind.maximumf.neutral .f32 hφ) (hc : S256.ShapeCasts S256x1)
    (hb : S256x1.Broadcasts S256x2048) (p : Fin 256) (c : Fin 2048) :
    broadcastTo S256x2048 (shapeCast S256x1 (multiReduction .maximumf [1] S256 s 0xFF800000#32 h hφ hacc) hc) hb (ix2 p c)
      = Cert.CausalSoftmax.rowMax fun c' => s (ix2 p c') := by
  refine (broadcastTo_a1_ab_apply _ hb p c).trans ?_
  refine (shapeCast_a_a1_apply _ hc p 0).trans ?_
  refine (Ideal.multiReduction_maximumf_single s _ h hφ hacc (ix1 p)).trans ?_
  show Finset.fold max (Ideal.ofBits .f32 0xFF800000#32) (fun c' : Fin 2048 => s (h.lift (ix1 p) c')) Finset.univ
    = Finset.fold max ⊥ (fun c' : Fin 2048 => s (ix2 p c')) Finset.univ
  rw [Cert.CausalSoftmax.negInf_word]
  exact congrArg (fun f => Finset.fold max ⊥ f Finset.univ) (funext fun c' => congrArg s (lift_row h p c'))

/-- The row sum, kept as a column and spread over the columns, at (p, c): the finite sum over row p. -/
theorem rowSum_apply (s : FVec Ideal S256x2048 .f32) (h : S256x2048.Reduces [1] S256) (hφ : FKind.Formats .f32)
    (hacc : (0x00000000#32 : BitVec 32) = FKind.add.neutral .f32 hφ) (hc : S256.ShapeCasts S256x1)
    (hb : S256x1.Broadcasts S256x2048) (p : Fin 256) (c : Fin 2048) :
    broadcastTo S256x2048 (shapeCast S256x1 (multiReduction .add [1] S256 s 0x00000000#32 h hφ hacc) hc) hb (ix2 p c)
      = ∑ c' : Fin 2048, s (ix2 p c') := by
  refine (broadcastTo_a1_ab_apply _ hb p c).trans ?_
  refine (shapeCast_a_a1_apply _ hc p 0).trans ?_
  refine (Ideal.multiReduction_add_single s _ h hφ hacc (ix1 p)).trans ?_
  show ∑ c' : Fin 2048, s (h.lift (ix1 p) c') = _
  exact Finset.sum_congr rfl fun c' _ => congrArg s (lift_row h p c')

/-! ## The causal mask -/

/-- A natural below 2^31 written as a 32-bit word reads back, as a signed integer, as itself. -/
theorem toInt_ofNat_small (n : ℕ) (h : n < 2147483648) : (BitVec.ofNat 32 n).toInt = (n : ℤ) := by
  rw [BitVec.toInt_eq_toNat_cond, BitVec.toNat_ofNat]
  have hn : n % 2 ^ 32 = n := Nat.mod_eq_of_lt (by omega)
  rw [hn]
  split
  · rfl
  · omega

/-- The signed comparison "column ≤ row" of the words of a column number c < 2048 and of a row number
    g · 256 + p (block g < 8, row p < 256 inside it) is the comparison of the naturals: the row word is the word
    of g · 256 + p, and both numbers are far below 2^31, so neither word reads as a negative integer. -/
theorem causal_word (g p c : ℕ) (hg : g < 8) (hp : p < 256) (hc : c < 2048) :
    IntOp.cmpi .sle (BitVec.ofNat 32 c) (IntOp.addi (Scalar.muli (BitVec.ofNat 32 g) 256#32) (BitVec.ofNat 32 p))
      = if c ≤ g * 256 + p then 1#1 else 0#1 := by
  have hrow : IntOp.addi (Scalar.muli (BitVec.ofNat 32 g) 256#32) (BitVec.ofNat 32 p) = BitVec.ofNat 32 (g * 256 + p) := by
    show BitVec.ofNat 32 g * BitVec.ofNat 32 256 + BitVec.ofNat 32 p = _
    rw [← BitVec.ofNat_mul, ← BitVec.ofNat_add]
  rw [hrow]
  show BitVec.ofBool ((BitVec.ofNat 32 c).sle (BitVec.ofNat 32 (g * 256 + p))) = _
  rw [BitVec.sle_eq_decide, toInt_ofNat_small c (by omega), toInt_ofNat_small (g * 256 + p) (by omega)]
  by_cases h : c ≤ g * 256 + p
  · rw [if_pos h, decide_eq_true (by exact_mod_cast h)]; rfl
  · rw [if_neg h, decide_eq_false (by exact_mod_cast h)]; rfl

/-- The mask bit at (p, c): the column numbers are the iota along axis 1 of a [1, 2048] row spread over the rows,
    the row numbers the block's first row g · 256 plus the iota along axis 0 of a [256, 1] column, spread over the
    columns; the bit is 1 exactly when c ≤ g · 256 + p. -/
theorem mask_apply (g : ℕ) (hg : g < 8) (h15 : S256x1.Iotas .tc 32 [0]) (h18 : S1x2048.Iotas .tc 32 [1])
    (hb1 : S1x2048.Broadcasts S256x2048) (hb2 : S256x1.Broadcasts S256x2048) (p : Fin 256) (c : Fin 2048) :
    cmpi .sle (broadcastTo S256x2048 (iota .tc S1x2048 32 [1] h18) hb1)
        (broadcastTo S256x2048 (addi (broadcast S256x1 (Scalar.muli (BitVec.ofNat 32 g) 256#32)) (iota .tc S256x1 32 [0] h15)) hb2)
        (ix2 p c)
      = if c.val ≤ g * 256 + p.val then 1#1 else 0#1 := by
  have e1 : broadcastTo S256x2048 (iota .tc S1x2048 32 [1] h18) hb1 (ix2 p c) = BitVec.ofNat 32 c.val :=
    (broadcastTo_1b_ab_apply _ hb1 p c).trans (iota_single_apply .tc S1x2048 32 1 h18 _)
  have e2 : broadcastTo S256x2048 (addi (broadcast S256x1 (Scalar.muli (BitVec.ofNat 32 g) 256#32)) (iota .tc S256x1 32 [0] h15)) hb2 (ix2 p c)
      = IntOp.addi (Scalar.muli (BitVec.ofNat 32 g) 256#32) (BitVec.ofNat 32 p.val) :=
    (broadcastTo_a1_ab_apply _ hb2 p c).trans
      (congrArg (IntOp.addi (Scalar.muli (BitVec.ofNat 32 g) 256#32)) (iota_single_apply .tc S256x1 32 0 h15 _))
  show IntOp.cmpi .sle (broadcastTo S256x2048 (iota .tc S1x2048 32 [1] h18) hb1 (ix2 p c))
    (broadcastTo S256x2048 (addi (broadcast S256x1 (Scalar.muli (BitVec.ofNat 32 g) 256#32)) (iota .tc S256x1 32 [0] h15)) hb2 (ix2 p c)) = _
  rw [e1, e2]
  exact causal_word g p.val c.val hg p.isLt c.isLt

/-- The named constant the kernel masks with denotes -∞. -/
theorem neg_big : Named.named (F := Ideal) κ "neg_big" (φ := .f32) 0xFF333332#32 = ⊥ :=
  IdealRules.named_const.ideal_named_scalar _ _ _ _ rfl

/-- The masked scores at (p, c): the score where the key's position c is at most the query's position
    g · 256 + p, and -∞ after it. -/
theorem masked_apply (g : ℕ) (hg : g < 8) (s : FVec Ideal S256x2048 .f32) (h15 : S256x1.Iotas .tc 32 [0])
    (h18 : S1x2048.Iotas .tc 32 [1]) (hb1 : S1x2048.Broadcasts S256x2048) (hb2 : S256x1.Broadcasts S256x2048)
    (p : Fin 256) (c : Fin 2048) :
    select (cmpi .sle (broadcastTo S256x2048 (iota .tc S1x2048 32 [1] h18) hb1)
        (broadcastTo S256x2048 (addi (broadcast S256x1 (Scalar.muli (BitVec.ofNat 32 g) 256#32)) (iota .tc S256x1 32 [0] h15)) hb2))
      s (broadcast S256x2048 (Named.named (F := Ideal) κ "neg_big" (φ := .f32) 0xFF333332#32)) (ix2 p c)
      = if c.val ≤ g * 256 + p.val then s (ix2 p c) else ⊥ := by
  show Scalar.select (cmpi .sle (broadcastTo S256x2048 (iota .tc S1x2048 32 [1] h18) hb1)
        (broadcastTo S256x2048 (addi (broadcast S256x1 (Scalar.muli (BitVec.ofNat 32 g) 256#32)) (iota .tc S256x1 32 [0] h15)) hb2) (ix2 p c))
      (s (ix2 p c)) (Named.named (F := Ideal) κ "neg_big" (φ := .f32) 0xFF333332#32) = _
  rw [mask_apply g hg h15 h18 hb1 hb2 p c, neg_big]
  split
  · exact select_one _ _
  · exact select_zero _ _

end Cert.KernelIdeal.RowValue

end
-- ==== Proof.KernelRow.lean ====
/-
  The attention kernel's stored block, read at one element, is the specification's attention row.

  At grid point i the body loads a block of 256 query rows v0 : [1, 256, 1024] (rows (i 1)·256 … (i 1)·256 + 255 of
  the batch entry), the weights v3 : [1024, 1024] and all 2048 key rows v7 : [1, 2048, 1024] of the same batch
  entry, and stores a [1, 256, 2048] block. Its element (0, p, q) is computed as follows:
    * the scaled scores of row p against every key c:  (∑ e, (∑ d, v0[p, d] · v3[d, e]) · v7[c, e]) · scale;
    * the causal mask: a key c after the query's own position (i 1)·256 + p scores -∞;
    * m = the maximum of the masked row; the shifted exponentials exp (s c − m); their sum over the row;
    * the quotient of the shifted exponential at q by that sum.
  That is the softmax of the masked scaled bilinear scores of the query vector v0[p, ·], which is what the
  specification calls the attention row of the query at position (i 1)·256 + p. The non-pointwise operations
  are read at an element in the imported module; here the softmax tail is read once over an arbitrary
  masked-score array, and the pieces are put together.
-/
import proofs.«165298_j35493609734830_2_alg».proof.Proof.KernelRowOps

noncomputable section

open scoped BigOperators

namespace Cert.KernelIdeal.RowValue

open Cert.KernelIdeal Cert.KernelIdeal.Gen Idealize.ShloMosaic Idealize.ShloMosaic.ValueIdx

/-! ## The softmax tail over an arbitrary array of masked scores -/

/-- The shifted exponentials of a [256, 2048] array: exp (s − m), with m the row maxima of s kept as a column and
    spread back over the columns. -/
abbrev shiftedExp (s : FVec Ideal S256x2048 .f32) (h : S256x2048.Reduces [1] S256) (hφ : FKind.Formats .f32)
    (hmax : (0xFF800000#32 : BitVec 32) = FKind.maximumf.neutral .f32 hφ) (hc : S256.ShapeCasts S256x1)
    (hb : S256x1.Broadcasts S256x2048) : FVec Ideal S256x2048 .f32 :=
  exp (subf s (broadcastTo S256x2048 (shapeCast S256x1 (multiReduction .maximumf [1] S256 s 0xFF800000#32 h hφ hmax) hc) hb))

/-- At (p, c) the shifted exponential is exp (s[p, c] − max over row p): exponential and difference are pointwise,
    and the spread-back row maximum reads the fold of max over row p at every column. -/
theorem shiftedExp_apply (s : FVec Ideal S256x2048 .f32) (h : S256x2048.Reduces [1] S256) (hφ : FKind.Formats .f32)
    (hmax : (0xFF800000#32 : BitVec 32) = FKind.maximumf.neutral .f32 hφ) (hc : S256.ShapeCasts S256x1)
    (hb : S256x1.Broadcasts S256x2048) (p : Fin 256) (c : Fin 2048) :
    shiftedExp s h hφ hmax hc hb (ix2 p c)
      = Ideal.exp (s (ix2 p c) - Cert.CausalSoftmax.rowMax fun c' => s (ix2 p c')) :=
  congrArg (fun m => Ideal.exp (s (ix2 p c) - m)) (rowMax_apply s h hφ hmax hc hb p c)

/-- The softmax tail at (p, q): the shifted exponential at q divided by the sum of the shifted exponentials of row p —
    the specification's softmax of row p of s. -/
theorem softmax_apply (s : FVec Ideal S256x2048 .f32) (h : S256x2048.Reduces [1] S256) (hφ : FKind.Formats .f32)
    (hmax : (0xFF800000#32 : BitVec 32) = FKind.maximumf.neutral .f32 hφ)
    (hadd : (0x00000000#32 : BitVec 32) = FKind.add.neutral .f32 hφ) (hc : S256.ShapeCasts S256x1)
    (hb : S256x1.Broadcasts S256x2048) (p : Fin 256) (q : Fin 2048) :
    divf (shiftedExp s h hφ hmax hc hb)
        (broadcastTo S256x2048 (shapeCast S256x1
          (multiReduction .add [1] S256 (shiftedExp s h hφ hmax hc hb) 0x00000000#32 h hφ hadd) hc) hb) (ix2 p q)
      = Cert.CausalSoftmax.softmaxRow (fun c => s (ix2 p c)) q := by
  show Ideal.div (shiftedExp s h hφ hmax hc hb (ix2 p q))
      (broadcastTo S256x2048 (shapeCast S256x1
        (multiReduction .add [1] S256 (shiftedExp s h hφ hmax hc hb) 0x00000000#32 h hφ hadd) hc) hb (ix2 p q)) = _
  rw [rowSum_apply _ h hφ hadd hc hb p q, shiftedExp_apply s h hφ hmax hc hb p q]
  unfold Cert.CausalSoftmax.softmaxRow
  exact congrArg (Ideal.div _) (Finset.sum_congr rfl fun c' _ => shiftedExp_apply s h hφ hmax hc hb p c')

/-! ## The stored block at an element -/

/-- The body's stored value at (0, p, q) of its [1, 256, 2048] block is the attention row of the query at position
    (i 1)·256 + p — query vector row p of the loaded query block, the loaded weights, key rows the rows of the loaded
    key block — at key q. The block is the [256, 2048] array of quotients viewed with a leading unit axis; the
    quotients are the softmax tail of the masked scores; and the masked scores' row p is the specification's masked
    row: the mask bit at (p, c) is "c ≤ (i 1)·256 + p", and the score there is the scaled bilinear score. -/
theorem pay_apply (i : grid0.Coords) (v0 : Vec Ideal S1x256x1024 .f32) (v3 : Vec Ideal S1024x1024 .f32)
    (v7 : Vec Ideal S1x2048x1024 .f32) (p : Fin 256) (q : Fin 2048) :
    k0_pay1 (F := Ideal) i v0 v3 v7 (ix3 (0 : Fin 1) p q)
      = Cert.CausalSoftmax.attnRow ((i 1).val * 256 + p.val) (fun d => v0 (ix3 (0 : Fin 1) p d)) v3
          (fun c e => v7 (ix3 (0 : Fin 1) c e)) q := by
  unfold k0_pay1
  refine (shapeCast_ab_1ab_apply _ _ (0 : Fin 1) p q).trans ?_
  refine (softmax_apply _ _ _ _ _ _ _ p q).trans ?_
  unfold Cert.CausalSoftmax.attnRow
  refine congrArg (fun s => Cert.CausalSoftmax.softmaxRow s q) (funext fun c => ?_)
  refine (masked_apply (i 1).val (i 1).isLt _ _ _ _ _ p c).trans ?_
  unfold Cert.CausalSoftmax.maskedRow
  exact congrArg (fun x => if c.val ≤ (i 1).val * 256 + p.val then x else ⊥) (scores_apply v0 v3 v7 _ _ _ _ p c)

end Cert.KernelIdeal.RowValue

end
-- ==== Proof.KernelArray.lean ====
/-
  From blocks to the array: the result array after the run is the specification's probabilities.

  The region's grid is 4 × 8 points; point t = (b, qi) writes back rows 256·qi … 256·qi + 255 of batch entry b
  of the result, and these 32 blocks of [1, 256, 2048] tile the [4, 2048, 2048] array. At point t the body was
  handed the query block x[b, 256·qi + ·, ·], the key block x[b, ·, ·] and the weights, so row p of what it wrote
  is the attention row of the query at position 256·qi + p of batch b: block t of the probabilities. Since every
  index of the array lies in exactly the block of the point (i₀, i₁ / 256), the array ends at the probabilities.
-/
import proofs.«165298_j35493609734830_2_alg».proof.Proof.KernelIdealFrame
import proofs.«165298_j35493609734830_2_alg».proof.Proof.KernelRow
import proofs.«165298_j35493609734830_2_alg».proof.Proof.Spec
import Idealize.ShloMosaic.Lib.Pipeline.Value
import Idealize.ShloMosaic.Lib.ValueIdx

set_option maxRecDepth 16384

noncomputable section

namespace Cert.KernelIdeal.ArrayValue

open Cert.KernelIdeal Cert.KernelIdeal.Gen Cert.KernelIdeal.FrameRun Cert.CausalSoftmax
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)
open Cert.KernelIdeal.RowValue

/-! ## The index maps over the grid -/

/-- The printed index maps, decided over the 32 points: the query window moves with the result window on the
    batch and row-block axes, the key window on the batch axis only, the weights not at all; the result's block
    indices stay in range; and the grid's second coordinate is the result's row-block index. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (2 : Fin 3) = 0 ∧ win0_3.index t (0 : Fin 3) ≤ 3 ∧ win0_3.index t (1 : Fin 3) ≤ 7
    ∧ (grid0.coords t (1 : Fin 2)).val = win0_3.index t (1 : Fin 3) :=
  (by decide +kernel : ∀ t : Fin grid0.N, _)

/-- Every (batch entry, row block) is some point's. -/
theorem idx_onto : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-! ## The input blocks, read at an index -/

/-- The query block at point t, at (0, p, d), is x at any index with coordinates (b, 256·qi + p, d). -/
theorem iblk_q (c : Dev nD) (t : Fin cfg0.N) (p : Fin 256) (d : Fin 1024) (i : S4x2048x1024.Idx)
    (h0 : (i 0).val = win0_3.index t (0 : Fin 3)) (h1 : (i 1).val = win0_3.index t (1 : Fin 3) * 256 + p.val) (h2 : (i 2).val = d.val) :
    iblk m c 0 t (ix3 (0 : Fin 1) p d) = V m c main_arg0 i := by
  show V m c main_arg0 (((cfg0.win 0).blk t).view.emb (ix3 (0 : Fin 1) p d)) = V m c main_arg0 i
  obtain ⟨e0, e1, e2, -⟩ := idx_facts t
  refine congrArg _ (funext fun a => Fin.ext ?_)
  match a with
  | ⟨0, _⟩ => show win0_0.index t (0 : Fin 3) * 1 + 1 * 0 = (i 0).val; omega
  | ⟨1, _⟩ => show win0_0.index t (1 : Fin 3) * 256 + 1 * p.val = (i 1).val; omega
  | ⟨2, _⟩ => show win0_0.index t (2 : Fin 3) * 1024 + 1 * d.val = (i 2).val; omega

/-- The key block at point t, at (0, k, e), is x at any index with coordinates (b, k, e). -/
theorem iblk_k (c : Dev nD) (t : Fin cfg0.N) (k : Fin 2048) (e : Fin 1024) (i : S4x2048x1024.Idx)
    (h0 : (i 0).val = win0_3.index t (0 : Fin 3)) (h1 : (i 1).val = k.val) (h2 : (i 2).val = e.val) :
    iblk m c 1 t (ix3 (0 : Fin 1) k e) = V m c main_arg0 i := by
  show V m c main_arg0 (((cfg0.win 1).blk t).view.emb (ix3 (0 : Fin 1) k e)) = V m c main_arg0 i
  obtain ⟨-, -, -, e3, e4, e5, -⟩ := idx_facts t
  refine congrArg _ (funext fun a => Fin.ext ?_)
  match a with
  | ⟨0, _⟩ => show win0_1.index t (0 : Fin 3) * 1 + 1 * 0 = (i 0).val; omega
  | ⟨1, _⟩ => show win0_1.index t (1 : Fin 3) * 2048 + 1 * k.val = (i 1).val; omega
  | ⟨2, _⟩ => show win0_1.index t (2 : Fin 3) * 1024 + 1 * e.val = (i 2).val; omega

/-- The weights' block is the whole weights array, at every point. -/
theorem iblk_w (c : Dev nD) (t : Fin cfg0.N) : iblk m c 2 t = V m c main_arg1 := by
  funext j
  show V m c main_arg1 (((cfg0.win 2).blk t).view.emb j) = V m c main_arg1 j
  obtain ⟨-, -, -, -, -, -, e6, e7, -⟩ := idx_facts t
  refine congrArg _ (funext fun a => Fin.ext ?_)
  match a with
  | ⟨0, _⟩ => show win0_2.index t (0 : Fin 2) * 1024 + 1 * (j 0).val = (j 0).val; omega
  | ⟨1, _⟩ => show win0_2.index t (1 : Fin 2) * 1024 + 1 * (j 1).val = (j 1).val; omega

/-! ## What a point writes back -/

/-- Attention rows with equal data are equal. -/
theorem attnRow_congr {row row' : ℕ} {q q' : Fin 1024 → EReal} {w w' : SW.Idx → EReal} {k k' : Fin 2048 → Fin 1024 → EReal}
    {c c' : Fin 2048} (h1 : row = row') (h2 : q = q') (h3 : w = w') (h4 : k = k') (h5 : c = c') :
    attnRow row q w k c = attnRow row' q' w' k' c' := by subst h1 h2 h3 h4 h5; rfl

/-- WHAT POINT t WRITES BACK is block t of the probabilities of the argument arrays. -/
theorem flushed_eq (c : Dev nD) (t : Fin cfg0.N) :
    (dats m 0 c).flushed 3 t = ((cfg0.win 3).blk t).view.read (Elt Ideal) (probs (V m c main_arg0) (V m c main_arg1)) := by
  show (cfg0.win 3).cut (grid0.coords t) ((dats m 0 c).after 3 t) = _
  rw [after_out]
  unfold outBlock
  rw [View.canon_unit_zero hz3]
  simp only [View.ld_unit_zero (S := S1x256x1024) hz3, View.ld_unit_zero (S := S1x2048x1024) hz3, View.ld_unit_zero (S := S1024x1024) hz2]
  obtain ⟨-, -, -, -, -, -, -, -, e8, e9, e10, e11⟩ := idx_facts t
  funext j
  obtain ⟨z, p, q, rfl⟩ : ∃ (z : Fin 1) (p : Fin 256) (q : Fin 2048), j = ix3 z p q := ⟨j 0, j 1, j 2, eq_ix3 j⟩
  obtain rfl : z = 0 := Subsingleton.elim _ _
  show k0_pay1 (F := Ideal) (grid0.coords t) (iblk m c 0 t) (iblk m c 2 t) (iblk m c 1 t) (ix3 (0 : Fin 1) p q)
    = probs (V m c main_arg0) (V m c main_arg1) (((cfg0.win 3).blk t).view.emb (ix3 (0 : Fin 1) p q))
  rw [pay_apply, iblk_w]
  unfold probs
  have hI0 : ((((cfg0.win 3).blk t).view.emb (ix3 (0 : Fin 1) p q)) 0).val = win0_3.index t (0 : Fin 3) := by
    show win0_3.index t (0 : Fin 3) * 1 + 1 * 0 = _; omega
  have hI1 : ((((cfg0.win 3).blk t).view.emb (ix3 (0 : Fin 1) p q)) 1).val = win0_3.index t (1 : Fin 3) * 256 + p.val := by
    show win0_3.index t (1 : Fin 3) * 256 + 1 * p.val = _; omega
  have hI2 : ((((cfg0.win 3).blk t).view.emb (ix3 (0 : Fin 1) p q)) 2).val = q.val := by
    show win0_3.index t (2 : Fin 3) * 2048 + 1 * q.val = _; omega
  refine attnRow_congr ?_ ?_ rfl ?_ ?_
  · rw [hI1, e11]
  · funext d; exact iblk_q m c t p d _ hI0 hI1 rfl
  · funext k e; exact iblk_k m c t k e _ hI0 rfl rfl
  · exact Fin.ext hI2.symm

/-! ## The cover, and the array -/

/-- An index of the array is in point t's block iff each coordinate is in the block's range on its axis. -/
theorem mem_blk (t : Fin cfg0.N) (i : S4x2048x2048.Idx) :
    i ∈ ((cfg0.win 3).blk t).view.set ↔ ∀ a : Fin 3, win0_3.index t a * S1x256x2048.size a ≤ (i a).val ∧ (i a).val < win0_3.index t a * S1x256x2048.size a + S1x256x2048.size a := by
  show i ∈ ((View.whole main_v0).slice (win0_3.rect t)).set ↔ _
  rw [View.set_slice_whole, Rect.mem_set_unit]
  exact Iff.rfl

/-- Every index of the array is in the block of the point (i₀, i₁ / 256). -/
theorem cover (i : S4x2048x2048.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 2048 ≤ (i 2).val ∧ (i 2).val < win0_3.index t (2 : Fin 3) * 2048 + 2048; omega

/-- THE ARRAY after the run: the probabilities of the argument arrays. -/
theorem final (c : Dev nD) :
    (dats m 0 c).arrAt 3 cfg0.N = probs (V m c main_arg0) (V m c main_arg1) :=
  (dats m 0 c).arrAt_eq_of_cover 3 _ (fun t _ => flushed_eq m c t) cover

/-! ## The run, read -/

/-- The run re-posted: the result array at the probabilities of the arguments, the arguments unchanged. -/
theorem run : θ_run defs (onTc (τ := τ) (main (F := Ideal))) ⟨m, fun _ => 0, ρ⟩ fun r => ∀ c : Dev nD,
      r.2.mem ((c.tc : Thread nD τ).loc main_v0) = probs (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c 3).trans (final m c),
      (h c 0).trans (((dats m 0 c).arrAt_in 0 rfl _).trans (A_eq m c 0)),
      (h c 2).trans (((dats m 0 c).arrAt_in 2 rfl _).trans (A_eq m c 2))⟩)
    (run_main m ρ)

end Cert.KernelIdeal.ArrayValue

end
-- ==== Proof.Reference.lean ====
/-
  The reference program computes the specification.

  The reference is a chain of whole-array operations: two contractions (the projected query x·w, then its
  scores against every key row), a division by √1024, a mask built from two integer iotas, a select of −∞
  under the mask, the row maximum, the exponential of the shifted row, the row sum and the final quotient.
  Read at one index (b, r, c) of the result, each stage is one clause of the specification's row
  operations: the contraction pair is `bilinear`, the division and the mask are `maskedRow`, the maximum
  is `rowMax`, and the last three stages are `softmaxRow`. This module reads the stages one by one at
  explicit coordinates and then assembles them.
-/
import proofs.«165298_j35493609734830_2_alg».proof.Proof.Gen.ReferenceIdeal.Read
import proofs.«165298_j35493609734830_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Cert.CausalSoftmax

/-- The activations x : [4, 2048, 1024], as the reference's first argument is typed. -/
abbrev XArr := (⟨S4x2048x1024, .f32⟩ : BufTy).Contents (Elt Ideal)
/-- The weights w : [1024, 1024], as the reference's second argument is typed. -/
abbrev WArr := (⟨S1024x1024, .f32⟩ : BufTy).Contents (Elt Ideal)

/-! ## The scores: two contractions -/

/-- Query row r of batch b, as the row operations take it: the vector x[b, r, ·]. -/
def qRow (x : XArr) (b : Fin 4) (r : Fin 2048) : Fin 1024 → EReal := fun d => x (ix3 b r d)
/-- The key rows of batch b, as the row operations take them: the matrix x[b, ·, ·]. -/
def kRows (x : XArr) (b : Fin 4) : Fin 2048 → Fin 1024 → EReal := fun c e => x (ix3 b c e)

/-- The first contraction at (b, r, e) is the projected query ∑ d, x[b, r, d] · w[d, e]. -/
theorem proj_eq (x : XArr) (w : WArr) (b : Fin 4) (r : Fin 2048) (e : Fin 1024) :
    val_main_v0 (F := Ideal) x w (ix3 b r e) = ∑ d : Fin 1024, qRow x b r d * w (ix2 d e) := by
  rw [val_main_v0_apply]
  refine Finset.sum_congr rfl fun d _ => ?_
  have el : lidx_main_v0 (ix3 b r e) d = ix3 b r d :=
    funext fun a => Fin.ext (by match a with | ⟨0, _⟩ => rfl | ⟨1, _⟩ => rfl | ⟨2, _⟩ => rfl)
  have er : ridx_main_v0 (ix3 b r e) d = ix2 d e :=
    funext fun a => Fin.ext (by match a with | ⟨0, _⟩ => rfl | ⟨1, _⟩ => rfl)
  rw [el, er]; rfl

/-- The second contraction at (b, r, c) pairs the projected query with key row c: the bilinear score. -/
theorem score_eq (x : XArr) (w : WArr) (b : Fin 4) (r c : Fin 2048) :
    val_main_v1 (F := Ideal) x w (ix3 b r c) = bilinear (qRow x b r) w (kRows x b) c := by
  rw [val_main_v1_apply]
  unfold bilinear
  refine Finset.sum_congr rfl fun e _ => ?_
  have el : lidx_main_v1 (ix3 b r c) e = ix3 b r e :=
    funext fun a => Fin.ext (by match a with | ⟨0, _⟩ => rfl | ⟨1, _⟩ => rfl | ⟨2, _⟩ => rfl)
  have er : ridx_main_v1 (ix3 b r c) e = ix3 b c e :=
    funext fun a => Fin.ext (by match a with | ⟨0, _⟩ => rfl | ⟨1, _⟩ => rfl | ⟨2, _⟩ => rfl)
  rw [el, er, proj_eq]; rfl

/-! ## The causal mask: two integer iotas compared -/

/-- A row or column number, below 2048, read back from its 32-bit word as a signed integer. -/
theorem toInt_word (n : ℕ) (hn : n < 2048) : (BitVec.ofNat 32 n).toInt = (n : ℤ) := by
  rw [BitVec.toInt_eq_toNat_of_lt (by rw [BitVec.toNat_ofNat]; omega), BitVec.toNat_ofNat]
  omega

/-- The mask at (r, c): the row iota (plus the zero offset of the main diagonal) is compared, signed,
    with the column iota; where row ≥ column the mask is cleared, elsewhere it keeps the splat `true`.
    So the bit is set exactly on the keys after the query's own position. -/
theorem mask_eq (r c : Fin 2048) :
    val_main_v6 (F := Ideal) (ix2 r c) = if c.val ≤ r.val then 0#1 else 1#1 := by
  rw [val_main_v6_apply, val_main_call0_v4_apply, val_main_call0_v2_apply, val_main_call0_v0_apply,
    val_main_call0_v1_apply, val_main_call0_c_apply, val_main_call0_v3_apply, val_main_call0_v5_apply,
    val_main_call0_c_0_apply, val_main_v5_apply, val_main_c_apply]
  show Scalar.select (IntOp.cmpi .sge (IntOp.addi (BitVec.ofNat 32 r.val) 0#32) (BitVec.ofNat 32 c.val)) 0#1 1#1 = _
  have hadd : IntOp.addi (BitVec.ofNat 32 r.val) 0#32 = BitVec.ofNat 32 r.val := BitVec.add_zero _
  rw [hadd]
  by_cases h : c.val ≤ r.val
  · have hb : IntOp.cmpi .sge (BitVec.ofNat 32 r.val) (BitVec.ofNat 32 c.val) = 1#1 := by
      have : (BitVec.ofNat 32 c.val).sle (BitVec.ofNat 32 r.val) = true := by
        rw [BitVec.sle_iff_toInt_le, toInt_word _ c.isLt, toInt_word _ r.isLt]; exact_mod_cast h
      simp only [IntOp.cmpi, this]; rfl
    rw [hb, select_one, if_pos h]
  · have hb : IntOp.cmpi .sge (BitVec.ofNat 32 r.val) (BitVec.ofNat 32 c.val) = 0#1 := by
      have : (BitVec.ofNat 32 c.val).sle (BitVec.ofNat 32 r.val) = false := by
        rw [Bool.eq_false_iff, Ne, BitVec.sle_iff_toInt_le, toInt_word _ c.isLt, toInt_word _ r.isLt]
        exact_mod_cast h
      simp only [IntOp.cmpi, this]; rfl
    rw [hb, select_zero, if_neg h]

/-! ## The masked, scaled scores -/

/-- The masked score at (b, r, c): the score divided by √1024, that is times 1/32, for a key at or
    before the query's position, and −∞ for a later key. -/
theorem masked_eq (x : XArr) (w : WArr) (b : Fin 4) (r c : Fin 2048) :
    val_main_v7 (F := Ideal) x w (ix3 b r c)
      = maskedRow r.val (bilinear (qRow x b r) w (kRows x b)) c := by
  rw [val_main_v7_apply, val_main_call1_v1_apply, val_main_call1_v2_apply, val_main_call1_v0_apply,
    val_main_cst_0_apply, val_main_v4_apply, val_main_v3_apply, val_main_v2_apply, val_main_cst_apply]
  have ei : idx_main_call1_v1 (ix3 b r c) = ix2 r c :=
    funext fun a => Fin.ext (by match a with | ⟨0, _⟩ => rfl | ⟨1, _⟩ => rfl)
  rw [ei, mask_eq, score_eq]
  unfold maskedRow
  by_cases h : c.val ≤ r.val
  · rw [if_pos h, if_pos h, select_zero, Ideal.hostDivf_def, Ideal.hostUnary_sqrt_def, Ideal.ofBits_def,
      div_sqrt_1024]
  · rw [if_neg h, if_neg h, select_one, Ideal.ofBits_def, negInf_word]

/-! ## The row maximum -/

/-- The masked row of query (b, r), as a function of the key. -/
def rowOf (x : XArr) (w : WArr) (b : Fin 4) (r : Fin 2048) : Fin 2048 → EReal :=
  maskedRow r.val (bilinear (qRow x b r) w (kRows x b))

/-- Over the result index (b, r) of a reduction along the last axis, the source index with column k
    inserted is (b, r, k). -/
theorem lift_eq (h : S4x2048x2048.Reduces [2] S4x2048) (b : Fin 4) (r k : Fin 2048) :
    h.lift (ix2 b r) k = ix3 b r k :=
  funext fun a => Fin.ext (by match a with | ⟨0, _⟩ => rfl | ⟨1, _⟩ => rfl | ⟨2, _⟩ => rfl)

/-- The maximum stage at (b, r): the reduction folds `max` over the columns of the masked row starting
    from −∞, and the further maximum with the −∞ splat changes nothing (max ⊥ y = y). -/
theorem rowmax_eq (x : XArr) (w : WArr) (b : Fin 4) (r : Fin 2048) :
    val_main_v10 (F := Ideal) x w (ix2 b r) = rowMax (rowOf x w b r) := by
  have hred : S4x2048x2048.Reduces [2] S4x2048 := by decide
  have hfold : val_main_v8 (F := Ideal) x w (ix2 b r)
      = (Finset.univ : Finset (Fin 2048)).fold max ⊥ (fun k => val_main_v7 (F := Ideal) x w (ix3 b r k)) := by
    unfold val_main_v8
    generalize val_main_v7 (F := Ideal) x w = y
    rw [Host.reduce_eq_fold_single (α := EReal) (FloatOps.maximumf (F := Ideal) (φ := .f32))
        (y : S4x2048x2048.Idx → EReal) _ reducesTo_S4x2048x2048_S4x2048_d2 hred h_S_ (ix2 b r),
      val_main_cst_1_apply, Ideal.ofBits_def, negInf_word]
    show (Finset.univ : Finset (Fin 2048)).fold max ⊥ (fun k => y (hred.lift (ix2 b r) k)) = _
    exact Finset.fold_congr fun k _ => congrArg y (lift_eq hred b r k)
  rw [val_main_v10_apply, val_main_v9_apply, val_main_cst_2_apply, Ideal.ofBits_def, negInf_word,
    Ideal.maximumf_def, max_eq_right bot_le, hfold]
  unfold rowMax rowOf
  exact Finset.fold_congr fun k _ => masked_eq x w b r k

/-! ## The shifted exponentials, their sum, and the quotient -/

/-- The exponential stage at (b, r, c): exp of the masked score minus the row's maximum. The maximum
    reaches (b, r, c) through two broadcasts, [4, 2048] → [4, 2048, 1] → [4, 2048, 2048]. -/
theorem exp_eq (x : XArr) (w : WArr) (b : Fin 4) (r c : Fin 2048) :
    val_main_v14 (F := Ideal) x w (ix3 b r c)
      = Ideal.exp (rowOf x w b r c - rowMax (rowOf x w b r)) := by
  rw [val_main_v14_apply, val_main_v13_apply, val_main_v12_apply, val_main_v11_apply]
  have ei : idx_main_v11 (idx_main_v12 (ix3 b r c)) = ix2 b r :=
    funext fun a => Fin.ext (by match a with | ⟨0, _⟩ => rfl | ⟨1, _⟩ => rfl)
  rw [ei, rowmax_eq, masked_eq, Ideal.hostUnary_exp_def, Ideal.subf_def]
  rfl

/-- The sum stage at (b, r): the initial value 0 plus the sum of the row's exponentials. -/
theorem rowsum_eq (x : XArr) (w : WArr) (b : Fin 4) (r : Fin 2048) :
    val_main_v15 (F := Ideal) x w (ix2 b r)
      = ∑ c : Fin 2048, Ideal.exp (rowOf x w b r c - rowMax (rowOf x w b r)) := by
  rw [val_main_v15_apply, val_main_cst_3_apply, Ideal.ofBits_def, Ideal.ofBits_zero_f32, zero_add]
  refine Finset.sum_congr rfl fun c _ => ?_
  have ei : idx_main_v15 (ix2 b r) c = ix3 b r c :=
    funext fun a => Fin.ext (by match a with | ⟨0, _⟩ => rfl | ⟨1, _⟩ => rfl | ⟨2, _⟩ => rfl)
  rw [ei, exp_eq]

/-- The last stage at (b, r, c): the exponential over the row sum (which reaches (b, r, c) through the
    same two broadcasts): the softmax of the masked row of query (b, r), at key c. -/
theorem result_at (x : XArr) (w : WArr) (b : Fin 4) (r c : Fin 2048) :
    val_main_v18 (F := Ideal) x w (ix3 b r c) = attnRow r.val (qRow x b r) w (kRows x b) c := by
  rw [val_main_v18_apply, val_main_v17_apply, val_main_v16_apply]
  have ei : idx_main_v16 (idx_main_v17 (ix3 b r c)) = ix2 b r :=
    funext fun a => Fin.ext (by match a with | ⟨0, _⟩ => rfl | ⟨1, _⟩ => rfl)
  rw [ei, rowsum_eq, exp_eq, Ideal.hostDivf_def]
  rfl

/-! ## The whole array -/

/-- The reference's result array is the specification's array of attention probabilities of its two
    arguments. -/
theorem result_eq (x : (⟨Cert.ReferenceIdeal.S4x2048x1024, .f32⟩ : BufTy).Contents (Elt Ideal))
    (w : (⟨Cert.ReferenceIdeal.S1024x1024, .f32⟩ : BufTy).Contents (Elt Ideal)) :
    Cert.ReferenceIdeal.Read.val_main_v18 (F := Ideal) x w = Cert.CausalSoftmax.probs x w := by
  funext i
  obtain ⟨b, r, c, rfl⟩ : ∃ (b : Fin 4) (r c : Fin 2048), i = ix3 b r c := ⟨i 0, i 1, i 2, eq_ix3 i⟩
  rw [result_at]
  rfl

end Cert.ReferenceIdeal.RefValue

end
-- ==== Proof.lean ====
/-
  The kernel — a causal softmax over bilinear attention scores, computed block of rows by block of rows — equals
  its whole-array reference over the extended reals.

  Both programs take x : [4, 2048, 1024] and w : [1024, 1024] and return, for every batch entry b and query row
  r, the softmax over the keys c ≤ r of the scores ((x w)[b, r, ·] · x[b, c, ·]) / 32, the later keys masked to
  −∞ (Proof/Spec.lean states this as `probs`). The proof has five parts:
    * the kernel's region runs and leaves its argument arrays alone, at the word-level instance and at the
      ideal one (Proof/KernelFrame.lean, Proof/KernelIdealFrame.lean — one text, two instances);
    * the reference is a straight line of host operations whose run is read back (generated) and whose
      result, stage by stage at an index, is `probs` (Proof/Reference.lean);
    * the kernel body's one store, read at an index of its block at the ideal instance, is the attention row
      of that block's query (Proof/KernelRow.lean), and the 32 blocks tile the result array
      (Proof/KernelArray.lean), so the kernel's result is `probs` too;
    * the idealized kernel differs from the printed one in one constant: the finite stand-in the kernel masks
      with is NAMED −∞, which is what the reference masks with;
    * no finiteness of the inputs is used: both sides are the same expression of the extended reals, the one
      law between them being that dividing by √1024 is multiplying by 1/32.
-/
import proofs.«165298_j35493609734830_2_alg».proof.Defs
import proofs.«165298_j35493609734830_2_alg».proof.Proof.Gen.Kernel
import proofs.«165298_j35493609734830_2_alg».proof.Proof.Gen.Kernel.Skeleton
import proofs.«165298_j35493609734830_2_alg».proof.Proof.Gen.Kernel.Launch
import proofs.«165298_j35493609734830_2_alg».proof.Proof.Gen.Kernel.Points
import proofs.«165298_j35493609734830_2_alg».proof.Proof.Gen.KernelIdeal
import proofs.«165298_j35493609734830_2_alg».proof.Proof.Gen.KernelIdeal.Skeleton
import proofs.«165298_j35493609734830_2_alg».proof.Proof.Gen.KernelIdeal.Launch
import proofs.«165298_j35493609734830_2_alg».proof.Proof.Gen.KernelIdeal.Points
import proofs.«165298_j35493609734830_2_alg».proof.Proof.Gen.ReferenceIdeal
import proofs.«165298_j35493609734830_2_alg».proof.Proof.Gen.ReferenceIdeal.Run
import proofs.«165298_j35493609734830_2_alg».proof.Proof.Gen.ReferenceIdeal.Read
import proofs.«165298_j35493609734830_2_alg».proof.Proof.Gen.Pre_finite_inputs
import proofs.«165298_j35493609734830_2_alg».proof.Proof.KernelFrame
import proofs.«165298_j35493609734830_2_alg».proof.Proof.KernelIdealFrame
import proofs.«165298_j35493609734830_2_alg».proof.Proof.KernelArray
import proofs.«165298_j35493609734830_2_alg».proof.Proof.Reference
import Idealize.ShloMosaic.Adequacy
import Idealize.ShloMosaic.Init

noncomputable section

namespace Cert.Proof

open Idealize.ShloMosaic Idealize.ShloMosaic.TcCoe Idealize.SL.Sem

/-- The printed kernel runs to the end, faults nowhere and leaves its arguments unchanged. -/
theorem frame_kernel : Cert.frame_Kernel := fun m ρ _ => Cert.Kernel.FrameRun.frame m ρ

/-- So does the idealized kernel. -/
theorem frame_kernelIdeal : Cert.frame_KernelIdeal := fun m ρ _ => Cert.KernelIdeal.FrameRun.frame m ρ

/-- So does the reference: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the kernel's mask fill, a large negative finite number, is named −∞. -/
theorem preserves : Cert.preserves_Kernel_KernelIdeal :=
  IdealRules.named_const.statement Cert.KernelIdeal.κ "neg_big" .f32 0xFF333332#32 ⊥ rfl

/-- At the ideal instance, from memories agreeing on the arguments, the kernel's result array and the
    reference's are both the attention probabilities of the arguments. -/
theorem algebraic : Cert.algebraic_KernelIdeal_ReferenceIdeal := by
  intro m ρ m' ρ' _ hagree
  refine ⟨fun c => Cert.CausalSoftmax.probs (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
